-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x1024 : Shape := ⟨3, ![4, 8192, 1024]⟩
abbrev S1024x1024 : Shape := ⟨2, ![1024, 1024]⟩
abbrev S1024 : Shape := ⟨1, ![1024]⟩
abbrev S16x1024 : Shape := ⟨2, ![16, 1024]⟩
abbrev S1024x16 : Shape := ⟨2, ![1024, 16]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S16x1024 : S_.BroadcastsInDim S16x1024 (![] : Fin 0 → Fin S16x1024.rank)
  reducesTo_S16x1024_S_d0_1 : S16x1024.ReducesTo [0, 1] S_
  bcast_S_S1024x16 : S_.BroadcastsInDim S1024x16 (![] : Fin 0 → Fin S1024x16.rank)
  reducesTo_S1024x16_S_d0_1 : S1024x16.ReducesTo [0, 1] S_

variable [Facts]

def fn_part1 {F : FTy → Type} [FloatOps F] (main_arg4 : FVec F S1024x16 .f32) (main_arg5 : FVec F S1024x1024 .f32) (main_arg6 : FVec F S1024x1024 .f32) (main_v13 : IVec S_ 1) (main_v16 : IVec S16x1024 1) : IVec S_ 1 :=
  let main_c_5 : IVec S_ 1 := constantI S_ 1 1#1
  let main_v17 : IVec S_ 1 := (fun x v => Host.reduce IntOp.andi x v reducesTo_S16x1024_S_d0_1 h_S_) main_v16 main_c_5
  let main_v18 : IVec S_ 1 := andi main_v13 main_v17
  let main_v19 : FVec F S1024x16 .f32 := Host.absf main_arg4
  let main_cst_6 : FVec F S_ .f32 := constant S_ .f32 0x7F800000#32
  let main_v20 : FVec F S1024x16 .f32 := broadcastInDim S1024x16 ![] bcast_S_S1024x16 main_cst_6
  let main_v21 : IVec S1024x16 1 := cmpf .olt main_v19 main_v20
  let main_c_7 : IVec S_ 1 := constantI S_ 1 1#1
  let main_v22 : IVec S_ 1 := (fun x v => Host.reduce IntOp.andi x v reducesTo_S1024x16_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  main_v33

def fn {F : FTy → Type} [FloatOps F] (main_arg0 : FVec F S4x8192x1024 .f32) (main_arg1 : FVec F S1024x1024 .f32) (main_arg2 : FVec F S1024 .f32) (main_arg3 : FVec F S16x1024 .f32) (main_arg4 : FVec F S1024x16 .f32) (main_arg5 : FVec F S1024x1024 .f32) (main_arg6 : FVec F S1024x1024 .f32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S16x1024 .f32 := Host.absf main_arg3
  let main_cst_4 : FVec F S_ .f32 := constant S_ .f32 0x7F800000#32
  let main_v15 : FVec F S16x1024 .f32 := broadcastInDim S16x1024 ![] bcast_S_S16x1024 main_cst_4
  let main_v16 : IVec S16x1024 1 := cmpf .olt main_v14 main_v15
  fn_part1 (F := F) main_arg4 main_arg5 main_arg6 main_v13 main_v16
-- ==== Kernel.lean ====
abbrev S4x8192x1024 : Shape := ⟨3, ![4, 8192, 1024]⟩
abbrev S1024x1024 : Shape := ⟨2, ![1024, 1024]⟩
abbrev S1024 : Shape := ⟨1, ![1024]⟩
abbrev S16x1024 : Shape := ⟨2, ![16, 1024]⟩
abbrev S1024x16 : Shape := ⟨2, ![1024, 16]⟩
abbrev S32768x1024 : Shape := ⟨2, ![32768, 1024]⟩
abbrev S1024x3072 : Shape := ⟨2, ![1024, 3072]⟩
abbrev S1x1024 : Shape := ⟨2, ![1, 1024]⟩
abbrev S2048x1024 : Shape := ⟨2, ![2048, 1024]⟩
abbrev S2048x3072 : Shape := ⟨2, ![2048, 3072]⟩
abbrev S2048x16 : Shape := ⟨2, ![2048, 16]⟩

abbrev nBuf : Space → Nat
  | .hbm => 20
  | .vmem => 8
  | .smem => 0
  | _ => 0

abbrev bufTy : (tb : Table) → Fin (tcTables nBuf tb) → BufTy
  | .hbm, ⟨0, _⟩ => ⟨S4x8192x1024, .f32⟩
  | .hbm, ⟨1, _⟩ => ⟨S1024x1024, .f32⟩
  | .hbm, ⟨2, _⟩ => ⟨S1024, .f32⟩
  | .hbm, ⟨3, _⟩ => ⟨S16x1024, .f32⟩
  | .hbm, ⟨4, _⟩ => ⟨S1024x16, .f32⟩
  | .hbm, ⟨5, _⟩ => ⟨S1024x1024, .f32⟩
  | .hbm, ⟨6, _⟩ => ⟨S1024x1024, .f32⟩
  | .hbm, ⟨7, _⟩ => ⟨S32768x1024, .f32⟩
  | .hbm, ⟨8, _⟩ => ⟨S1024x1024, .f32⟩
  | .hbm, ⟨9, _⟩ => ⟨S1024x1024, .bf16⟩
  | .hbm, ⟨10, _⟩ => ⟨S1024x1024, .f32⟩
  | .hbm, ⟨11, _⟩ => ⟨S1024x1024, .bf16⟩
  | .hbm, ⟨12, _⟩ => ⟨S1024x1024, .f32⟩
  | .hbm, ⟨13, _⟩ => ⟨S1024x1024, .bf16⟩
  | .hbm, ⟨14, _⟩ => ⟨S1024x3072, .bf16⟩
  | .hbm, ⟨15, _⟩ => ⟨S1024x16, .f32⟩
  | .hbm, ⟨16, _⟩ => ⟨S16x1024, .f32⟩
  | .hbm, ⟨17, _⟩ => ⟨S1x1024, .f32⟩
  | .hbm, ⟨18, _⟩ => ⟨S32768x1024, .f32⟩
  | .hbm, ⟨19, _⟩ => ⟨S4x8192x1024, .f32⟩
  | .local _ .vmem, ⟨0, _⟩ => ⟨S2048x1024, .f32⟩
  | .local _ .vmem, ⟨1, _⟩ => ⟨S2048x1024, .f32⟩
  | .local _ .vmem, ⟨2, _⟩ => ⟨S1024x3072, .bf16⟩
  | .local _ .vmem, ⟨3, _⟩ => ⟨S1x1024, .f32⟩
  | .local _ .vmem, ⟨4, _⟩ => ⟨S1024x16, .f32⟩
  | .local _ .vmem, ⟨5, _⟩ => ⟨S16x1024, .f32⟩
  | .local _ .vmem, ⟨6, _⟩ => ⟨S2048x1024, .f32⟩
  | .local _ .vmem, ⟨7, _⟩ => ⟨S2048x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S4x8192x1024_S32768x1024 : S4x8192x1024.ShapeCasts S32768x1024
  transposes_S1024x1024_S1024x1024_1_0 : S1024x1024.Transposes [1, 0] S1024x1024
  bitsLt_bf16_f32 : FTy.bits .bf16 < FTy.bits .f32
  concatenates_S1024x1024_S1024x1024_S1024x1024_S1024x3072_d1 : Shape.Concatenates [S1024x1024, S1024x1024, S1024x1024] S1024x3072 1
  transposes_S16x1024_S1024x16_1_0 : S16x1024.Transposes [1, 0] S1024x16
  transposes_S1024x16_S16x1024_1_0 : S1024x16.Transposes [1, 0] S16x1024
  shapeCasts_S1024_S1x1024 : S1024.ShapeCasts S1x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  slices_S2048x3072_o0_0_S2048x1024 : S2048x3072.Slices ![0, 0] S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  slices_S2048x3072_o0_1024_S2048x1024 : S2048x3072.Slices ![0, 1024] S2048x1024
  slices_S2048x3072_o0_2048_S2048x1024 : S2048x3072.Slices ![0, 2048] S2048x1024
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  shapeCasts_S32768x1024_S4x8192x1024 : S32768x1024.ShapeCasts S4x8192x1024
  dot_S2048x1024_S1024x3072_S2048x3072_1_0_0_1_n_n_wf : DotDims.WF S2048x1024 S1024x3072 S2048x3072 [1] [0] [0] [1] [] []
  dot_S2048x1024_S1024x16_S2048x16_1_0_0_1_n_n_wf : DotDims.WF S2048x1024 S1024x16 S2048x16 [1] [0] [0] [1] [] []
  dot_S2048x16_S16x1024_S2048x1024_1_0_0_1_n_n_wf : DotDims.WF S2048x16 S16x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S32768x1024.size a
  hwx0_0 : ∀ i : grid0.Coords, EltTy.bits .f32 = 32 ∨ (Rect.block (s := S32768x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x16.size a ≤ S1024x16.size a
  hwx0_3 : ∀ i : grid0.Coords, EltTy.bits .f32 = 32 ∨ (Rect.block (s := S1024x16) S1024x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x1024.size a ≤ S16x1024.size a
  hwx0_4 : ∀ i : grid0.Coords, EltTy.bits .f32 = 32 ∨ (Rect.block (s := S16x1024) S16x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x1024.size a ≤ S32768x1024.size a
  hwx0_5 : ∀ i : grid0.Coords, EltTy.bits .f32 = 32 ∨ (Rect.block (s := S32768x1024) S2048x1024.size (cc0_transform_5 i) (hinb0_5 i)).WholeWords (EltTy.packing .f32)

variable [Facts₀]

def dot_S2048x1024_S1024x3072_S2048x3072_1_0_0_1_n_n : DotDims S2048x1024 S1024x3072 S2048x3072 where
  lhsContracting := [1]
  rhsContracting := [0]
  lhsNonContracting := [0]
  rhsNonContracting := [1]
  lhsBatch := []
  rhsBatch := []
  wf := dot_S2048x1024_S1024x3072_S2048x3072_1_0_0_1_n_n_wf
def dot_S2048x1024_S1024x16_S2048x16_1_0_0_1_n_n : DotDims S2048x1024 S1024x16 S2048x16 where
  lhsContracting := [1]
  rhsContracting := [0]
  lhsNonContracting := [0]
  rhsNonContracting := [1]
  lhsBatch := []
  rhsBatch := []
  wf := dot_S2048x1024_S1024x16_S2048x16_1_0_0_1_n_n_wf
def dot_S2048x16_S16x1024_S2048x1024_1_0_0_1_n_n : DotDims S2048x16 S16x1024 S2048x1024 where
  lhsContracting := [1]
  rhsContracting := [0]
  lhsNonContracting := [0]
  rhsNonContracting := [1]
  lhsBatch := []
  rhsBatch := []
  wf := dot_S2048x16_S16x1024_S2048x1024_1_0_0_1_n_n_wf

abbrev win0_0 : Pipeline.Window sig grid0 :=
  Pipeline.Window.ofSpec (Memref.whole main_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1024x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S16x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S2048x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x8192x1024 : Shape := ⟨3, ![4, 8192, 1024]⟩
abbrev S1024x1024 : Shape := ⟨2, ![1024, 1024]⟩
abbrev S1024 : Shape := ⟨1, ![1024]⟩
abbrev S16x1024 : Shape := ⟨2, ![16, 1024]⟩
abbrev S1024x16 : Shape := ⟨2, ![1024, 16]⟩
abbrev S1x1x1024 : Shape := ⟨3, ![1, 1, 1024]⟩
abbrev S4x8192x16 : Shape := ⟨3, ![4, 8192, 16]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024x1024, .f32⟩
  | .hbm, ⟨2, _⟩ => ⟨S1024, .f32⟩
  | .hbm, ⟨3, _⟩ => ⟨S16x1024, .f32⟩
  | .hbm, ⟨4, _⟩ => ⟨S1024x16, .f32⟩
  | .hbm, ⟨5, _⟩ => ⟨S1024x1024, .f32⟩
  | .hbm, ⟨6, _⟩ => ⟨S1024x1024, .f32⟩
  | .hbm, ⟨7, _⟩ => ⟨S4x8192x1024, .f32⟩
  | .hbm, ⟨8, _⟩ => ⟨S1x1x1024, .f32⟩
  | .hbm, ⟨9, _⟩ => ⟨S4x8192x1024, .f32⟩
  | .hbm, ⟨10, _⟩ => ⟨S4x8192x1024, .f32⟩
  | .hbm, ⟨11, _⟩ => ⟨S4x8192x16, .f32⟩
  | .hbm, ⟨12, _⟩ => ⟨S4x8192x1024, .f32⟩
  | .hbm, ⟨13, _⟩ => ⟨S_, .f32⟩
  | .hbm, ⟨14, _⟩ => ⟨S4x8192x1024, .f32⟩
  | .hbm, ⟨15, _⟩ => ⟨S4x8192x1024, .f32⟩
  | .hbm, ⟨16, _⟩ => ⟨S4x8192x1024, .f32⟩
  | .hbm, ⟨17, _⟩ => ⟨S4x8192x1024, .f32⟩
  | .hbm, ⟨18, _⟩ => ⟨S4x8192x1024, .f32⟩
  | .hbm, ⟨19, _⟩ => ⟨S_, .f32⟩
  | .hbm, ⟨20, _⟩ => ⟨S4x8192x1024, .f32⟩
  | .hbm, ⟨21, _⟩ => ⟨S4x8192x1024, .f32⟩
  | .hbm, ⟨22, _⟩ => ⟨S_, .f32⟩
  | .hbm, ⟨23, _⟩ => ⟨S4x8192x1024, .f32⟩
  | .hbm, ⟨24, _⟩ => ⟨S4x8192x1024, .f32⟩
  | .hbm, ⟨25, _⟩ => ⟨S4x8192x1024, .f32⟩
  | .hbm, ⟨26, _⟩ => ⟨S4x8192x1024, .f32⟩
  | .hbm, ⟨27, _⟩ => ⟨S4x8192x1024, .f32⟩
  | .hbm, ⟨28, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x8192x1024_0_1_2 : S1x1x1024.BroadcastsInDim S4x8192x1024 (![0, 1, 2] : Fin 3 → Fin S4x8192x1024.rank)
  bcast_S_S4x8192x1024 : S_.BroadcastsInDim S4x8192x1024 (![] : Fin 0 → Fin S4x8192x1024.rank)
  dot_S4x8192x1024_S1024x1024_S4x8192x1024_2_1_01_0_n_n_wf : DotDims.WF S4x8192x1024 S1024x1024 S4x8192x1024 [2] [1] [0, 1] [0] [] []
  dot_S4x8192x1024_S16x1024_S4x8192x16_2_1_01_0_n_n_wf : DotDims.WF S4x8192x1024 S16x1024 S4x8192x16 [2] [1] [0, 1] [0] [] []
  dot_S4x8192x16_S1024x16_S4x8192x1024_2_1_01_0_n_n_wf : DotDims.WF S4x8192x16 S1024x16 S4x8192x1024 [2] [1] [0, 1] [0] [] []

variable [Facts₀]

def dot_S4x8192x1024_S1024x1024_S4x8192x1024_2_1_01_0_n_n : DotDims S4x8192x1024 S1024x1024 S4x8192x1024 where
  lhsContracting := [2]
  rhsContracting := [1]
  lhsNonContracting := [0, 1]
  rhsNonContracting := [0]
  lhsBatch := []
  rhsBatch := []
  wf := dot_S4x8192x1024_S1024x1024_S4x8192x1024_2_1_01_0_n_n_wf
def dot_S4x8192x1024_S16x1024_S4x8192x16_2_1_01_0_n_n : DotDims S4x8192x1024 S16x1024 S4x8192x16 where
  lhsContracting := [2]
  rhsContracting := [1]
  lhsNonContracting := [0, 1]
  rhsNonContracting := [0]
  lhsBatch := []
  rhsBatch := []
  wf := dot_S4x8192x1024_S16x1024_S4x8192x16_2_1_01_0_n_n_wf
def dot_S4x8192x16_S1024x16_S4x8192x1024_2_1_01_0_n_n : DotDims S4x8192x16 S1024x16 S4x8192x1024 where
  lhsContracting := [2]
  rhsContracting := [1]
  lhsNonContracting := [0, 1]
  rhsNonContracting := [0]
  lhsBatch := []
  rhsBatch := []
  wf := dot_S4x8192x16_S1024x16_S4x8192x1024_2_1_01_0_n_n_wf

class Facts : Prop extends Facts₀ where

variable [Facts]
-- ==== Proof.KernelFrame.lean ====
/-
  The fused kernel inside its host program (`Kernel`): the run ends, nothing faults, the seven argument arrays end as they were
  launched, and the result array is named.

  The host program first re-lays its arguments — x flattened to 32768 rows of 1024; each of the three full-width weights
  transposed and narrowed, the three laid side by side as one 1024×3072 array; the two low-rank weights transposed; the
  bias made a 1×1024 row —, then runs the kernel over sixteen blocks of 2048 rows, then un-flattens the 32768×1024 result.
  No line before the kernel writes an argument array and none after it does; the kernel writes its result array only,
  and block t of it is the body's one store: the payload of the five input blocks at t (the x block moves with t,
  the four weight blocks are the whole arrays at every t). The output block is also loaded once before the store; the
  loaded value is not used.
-/
import proofs.«172807_j12850542150462_2_alg».proof.Proof.Gen.Kernel.Launch
import proofs.«172807_j12850542150462_2_alg».proof.Proof.Gen.Kernel.Skeleton
import proofs.«172807_j12850542150462_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the kernel -/

/-- Core `c`'s buffer contents when the kernel is entered: the launch memory after the eleven re-laying lines. -/
abbrev V0 (c : Dev nD) : Valuation τ sig (Elt F) := StableHlo.after (List.flatten [hostOps0]) (fun b => m (c, b))
/-- The same, read at a buffer of the core. -/
abbrev V (c : Dev nD) (b : Ref sig .tc) : Buf (Elt F) ((c : Thread nD τ).loc b) := V0 m c (Proc.devRef .tc b)

/-- No host line allocates. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The host program is: the re-laying lines, the kernel, the un-flattening line; up to the kernel it leaves the buffers
    at `V`, and after it the one remaining line runs. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The line after the kernel touches only the kernel's arrays and buffers the kernel does not stage, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes none of the kernel's six arrays (it writes the un-flattened result only). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- A buffer that is none of the eleven re-laid values is, at the kernel's entry, as launched: each line before the
    kernel writes its own result only. -/
theorem entry_kept (c : Dev nD) (b : Ref sig .tc)
    (hb : b ≠ main_v0 ∧ b ≠ main_v1 ∧ b ≠ main_v2 ∧ b ≠ main_v3 ∧ b ≠ main_v4 ∧ b ≠ main_v5 ∧ b ≠ main_v6 ∧ b ≠ main_v7
      ∧ b ≠ main_v8 ∧ b ≠ main_v9 ∧ b ≠ main_v10) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    obtain ⟨h0, h1, h2, h3, h4, h5, h6, h7, h8, h9, h10⟩ := hb
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6, StableHlo.devRef_ne_of_ne h7,
      StableHlo.devRef_ne_of_ne h8, StableHlo.devRef_ne_of_ne h9, StableHlo.devRef_ne_of_ne h10⟩))

/-- A buffer that is neither the un-flattened result nor one of the kernel's arrays is, at the end, as it was at the
    kernel's entry. -/
theorem tail_kept (dats : (p : Fin _) → (c : Dev nD) → Dat τ (Elt F) Unit ℕ (UR sig nD τ) ℕ (cfgs p) c) (c : Dev nD)
    (b : Ref sig .tc) (hb : b ≠ main_v12) (hw : ∀ w, Pipeline.arrRef spec0 w ≠ b) :
    Pipeline.afterTail₀ cfgs dats 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne hb)),
    Pipeline.withArrays_of_ne _ c (V0 m c) _ b hw]

/-- An argument array ends as launched. -/
theorem arg_kept (dats : (p : Fin _) → (c : Dev nD) → Dat τ (Elt F) Unit ℕ (UR sig nD τ) ℕ (cfgs p) c) (c : Dev nD)
    (b : Ref sig .tc) (hb : b ≠ main_v12) (hw : ∀ w, Pipeline.arrRef spec0 w ≠ b)
    (he : b ≠ main_v0 ∧ b ≠ main_v1 ∧ b ≠ main_v2 ∧ b ≠ main_v3 ∧ b ≠ main_v4 ∧ b ≠ main_v5 ∧ b ≠ main_v6 ∧ b ≠ main_v7
      ∧ b ≠ main_v8 ∧ b ≠ main_v9 ∧ b ≠ main_v10) :
    Pipeline.afterTail₀ cfgs dats 0 (V0 m) [hostOps1] c b = m ((c : Thread nD τ).loc b) :=
  (tail_kept m dats c b hb hw).trans (entry_kept m c b he)

/-! ## The windows' blocks -/

/-- Window `w`'s block at point `t`, read off its array as the kernel finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the point fetches it or the block
    index has not moved since it was fetched: for any proof data over `V` whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and the store take a whole buffer -/

abbrev r0_0 : Rect S2048x1024 := Rect.unit (s := S2048x1024) ![0, 0] S2048x1024.size inb_S2048x1024_S2048x1024_0_0
abbrev r0_1 : Rect S1024x3072 := Rect.unit (s := S1024x3072) ![0, 0] S1024x3072.size inb_S1024x3072_S1024x3072_0_0
abbrev r0_2 : Rect S1x1024 := Rect.unit (s := S1x1024) ![0, 0] S1x1024.size inb_S1x1024_S1x1024_0_0
abbrev r0_3 : Rect S1024x16 := Rect.unit (s := S1024x16) ![0, 0] S1024x16.size inb_S1024x16_S1024x16_0_0
abbrev r0_4 : Rect S16x1024 := Rect.unit (s := S16x1024) ![0, 0] S16x1024.size inb_S16x1024_S16x1024_0_0

/-- The output window's staging buffer after the body, from the five input blocks: its one store, of the payload. -/
def out0_5 (x0 : Vec F S2048x1024 .f32) (x1 : Vec F S1024x3072 .bf16) (x2 : Vec F S1x1024 .f32) (x3 : Vec F S1024x16 .f32)
    (x4 : Vec F S16x1024 .f32) : Vec F S2048x1024 .f32 :=
  View.canon [⟨r0_0, k0_pay1 (View.ld x0 r0_0) (View.ld x1 r0_1) (View.ld x2 r0_2) (View.ld x3 r0_3) (View.ld x4 r0_4)⟩]

/-- The one store covers the buffer. -/
theorem cover0_5 (p0 : Vec F S2048x1024 .f32) (y : S2048x1024.Idx) :
    ∃ pc ∈ ([⟨r0_0, p0⟩] : List (View.Piece (Elt F) S2048x1024 .f32)), y ∈ pc.1.set :=
  View.cover_of_tiled [⟨r0_0, p0⟩] S2048x1024.size (by rfl) y

/-! ## The body -/

set_option maxHeartbeats 1000000 in
/-- The body on whole staging buffers, the inputs' at contents `x0 … x4` and the output's at anything, runs to the
    continuation holding the inputs' as they were and the output's at `out0_5` of them. -/
theorem sound_kernel (c : Dev nD) (E : Set ℕ) (i : grid0.Coords)
    (arg1 : Memref sig .tc .vmem S2048x1024 .f32) (harg1 : arg1.IsWhole) (arg2 : Memref sig .tc .vmem S1024x3072 .bf16) (harg2 : arg2.IsWhole)
    (arg3 : Memref sig .tc .vmem S1x1024 .f32) (harg3 : arg3.IsWhole) (arg4 : Memref sig .tc .vmem S1024x16 .f32) (harg4 : arg4.IsWhole)
    (arg5 : Memref sig .tc .vmem S16x1024 .f32) (harg5 : arg5.IsWhole) (arg6 : Memref sig .tc .vmem S2048x1024 .f32) (harg6 : arg6.IsWhole)
    (x0 : Vec F S2048x1024 .f32) (x1 : Vec F S1024x3072 .bf16) (x2 : Vec F S1x1024 .f32) (x3 : Vec F S1024x16 .f32) (x4 : Vec F S16x1024 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E
          (cc0__fused_kernel i arg1 harg1 arg2 harg2 arg3 harg3 arg4 harg4 arg5 harg5 arg6 harg6) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The kernel's proof data -/

/-- On core `c`: the arrays as the kernel finds them; after the body at point `t` each input's buffer at its block and
    the output's at `out0_5` of the input blocks; nothing else held, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
  Φ _ := Pipeline.ΦA spec0 c
  q _ := fullShare
  owed _ := 0

/-- The proof data's arrays are the entry contents (the definition projected; `V` is never unfolded). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = out0_5 (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so `sound_kernel` applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of the host program ends, nothing faulting, with each
    of the kernel's arrays at what the write-backs leave and every other unscoped buffer as the last host line leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The same run with the result array named and the seven argument arrays as launched. -/
theorem run_named : θ_run defs (onTc (τ := τ) (main (F := F))) ⟨m, fun _ => 0, ρ⟩ (fun r => ∀ c : Dev nD,
      r.2.mem ((c.tc : Thread nD τ).loc main_v12) = Pipeline.afterTail₀ cfgs (dats m) 0 (V0 m) [hostOps1] c main_v12
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c).2 main_v12 (Pipeline.mem_restRefs_of main_v12 (by decide) (by decide)),
     ((h c).2 main_arg0 (Pipeline.mem_restRefs_of main_arg0 (by decide) (by decide))).trans (arg_kept m (dats m) c main_arg0 (by decide) (by decide) (by decide)),
     ((h c).2 main_arg1 (Pipeline.mem_restRefs_of main_arg1 (by decide) (by decide))).trans (arg_kept m (dats m) c main_arg1 (by decide) (by decide) (by decide)),
     ((h c).2 main_arg2 (Pipeline.mem_restRefs_of main_arg2 (by decide) (by decide))).trans (arg_kept m (dats m) c main_arg2 (by decide) (by decide) (by decide)),
     ((h c).2 main_arg3 (Pipeline.mem_restRefs_of main_arg3 (by decide) (by decide))).trans (arg_kept m (dats m) c main_arg3 (by decide) (by decide) (by decide)),
     ((h c).2 main_arg4 (Pipeline.mem_restRefs_of main_arg4 (by decide) (by decide))).trans (arg_kept m (dats m) c main_arg4 (by decide) (by decide) (by decide)),
     ((h c).2 main_arg5 (Pipeline.mem_restRefs_of main_arg5 (by decide) (by decide))).trans (arg_kept m (dats m) c main_arg5 (by decide) (by decide) (by decide)),
     ((h c).2 main_arg6 (Pipeline.mem_restRefs_of main_arg6 (by decide) (by decide))).trans (arg_kept m (dats m) c main_arg6 (by decide) (by decide) (by decide))⟩)
    (run_main m ρ)

/-- The frame: the run ends, nothing faults, the seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_named m ρ)

end Cert.Kernel.Frm

end
-- ==== Proof.KernelIdealFrame.lean ====
/-
  The fused kernel inside its host program (`KernelIdeal`): the run ends, nothing faults, the seven argument arrays end as they were
  launched, and the result array is named.

  The host program first re-lays its arguments — x flattened to 32768 rows of 1024; each of the three full-width weights
  transposed and narrowed, the three laid side by side as one 1024×3072 array; the two low-rank weights transposed; the
  bias made a 1×1024 row —, then runs the kernel over sixteen blocks of 2048 rows, then un-flattens the 32768×1024 result.
  No line before the kernel writes an argument array and none after it does; the kernel writes its result array only,
  and block t of it is the body's one store: the payload of the five input blocks at t (the x block moves with t,
  the four weight blocks are the whole arrays at every t). The output block is also loaded once before the store; the
  loaded value is not used.
-/
import proofs.«172807_j12850542150462_2_alg».proof.Proof.Gen.KernelIdeal.Launch
import proofs.«172807_j12850542150462_2_alg».proof.Proof.Gen.KernelIdeal.Skeleton
import proofs.«172807_j12850542150462_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the kernel -/

/-- Core `c`'s buffer contents when the kernel is entered: the launch memory after the eleven re-laying lines. -/
abbrev V0 (c : Dev nD) : Valuation τ sig (Elt F) := StableHlo.after (List.flatten [hostOps0]) (fun b => m (c, b))
/-- The same, read at a buffer of the core. -/
abbrev V (c : Dev nD) (b : Ref sig .tc) : Buf (Elt F) ((c : Thread nD τ).loc b) := V0 m c (Proc.devRef .tc b)

/-- No host line allocates. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The host program is: the re-laying lines, the kernel, the un-flattening line; up to the kernel it leaves the buffers
    at `V`, and after it the one remaining line runs. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The line after the kernel touches only the kernel's arrays and buffers the kernel does not stage, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes none of the kernel's six arrays (it writes the un-flattened result only). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- A buffer that is none of the eleven re-laid values is, at the kernel's entry, as launched: each line before the
    kernel writes its own result only. -/
theorem entry_kept (c : Dev nD) (b : Ref sig .tc)
    (hb : b ≠ main_v0 ∧ b ≠ main_v1 ∧ b ≠ main_v2 ∧ b ≠ main_v3 ∧ b ≠ main_v4 ∧ b ≠ main_v5 ∧ b ≠ main_v6 ∧ b ≠ main_v7
      ∧ b ≠ main_v8 ∧ b ≠ main_v9 ∧ b ≠ main_v10) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    obtain ⟨h0, h1, h2, h3, h4, h5, h6, h7, h8, h9, h10⟩ := hb
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6, StableHlo.devRef_ne_of_ne h7,
      StableHlo.devRef_ne_of_ne h8, StableHlo.devRef_ne_of_ne h9, StableHlo.devRef_ne_of_ne h10⟩))

/-- A buffer that is neither the un-flattened result nor one of the kernel's arrays is, at the end, as it was at the
    kernel's entry. -/
theorem tail_kept (dats : (p : Fin _) → (c : Dev nD) → Dat τ (Elt F) Unit ℕ (UR sig nD τ) ℕ (cfgs p) c) (c : Dev nD)
    (b : Ref sig .tc) (hb : b ≠ main_v12) (hw : ∀ w, Pipeline.arrRef spec0 w ≠ b) :
    Pipeline.afterTail₀ cfgs dats 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne hb)),
    Pipeline.withArrays_of_ne _ c (V0 m c) _ b hw]

/-- An argument array ends as launched. -/
theorem arg_kept (dats : (p : Fin _) → (c : Dev nD) → Dat τ (Elt F) Unit ℕ (UR sig nD τ) ℕ (cfgs p) c) (c : Dev nD)
    (b : Ref sig .tc) (hb : b ≠ main_v12) (hw : ∀ w, Pipeline.arrRef spec0 w ≠ b)
    (he : b ≠ main_v0 ∧ b ≠ main_v1 ∧ b ≠ main_v2 ∧ b ≠ main_v3 ∧ b ≠ main_v4 ∧ b ≠ main_v5 ∧ b ≠ main_v6 ∧ b ≠ main_v7
      ∧ b ≠ main_v8 ∧ b ≠ main_v9 ∧ b ≠ main_v10) :
    Pipeline.afterTail₀ cfgs dats 0 (V0 m) [hostOps1] c b = m ((c : Thread nD τ).loc b) :=
  (tail_kept m dats c b hb hw).trans (entry_kept m c b he)

/-! ## The windows' blocks -/

/-- Window `w`'s block at point `t`, read off its array as the kernel finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the point fetches it or the block
    index has not moved since it was fetched: for any proof data over `V` whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and the store take a whole buffer -/

abbrev r0_0 : Rect S2048x1024 := Rect.unit (s := S2048x1024) ![0, 0] S2048x1024.size inb_S2048x1024_S2048x1024_0_0
abbrev r0_1 : Rect S1024x3072 := Rect.unit (s := S1024x3072) ![0, 0] S1024x3072.size inb_S1024x3072_S1024x3072_0_0
abbrev r0_2 : Rect S1x1024 := Rect.unit (s := S1x1024) ![0, 0] S1x1024.size inb_S1x1024_S1x1024_0_0
abbrev r0_3 : Rect S1024x16 := Rect.unit (s := S1024x16) ![0, 0] S1024x16.size inb_S1024x16_S1024x16_0_0
abbrev r0_4 : Rect S16x1024 := Rect.unit (s := S16x1024) ![0, 0] S16x1024.size inb_S16x1024_S16x1024_0_0

/-- The output window's staging buffer after the body, from the five input blocks: its one store, of the payload. -/
def out0_5 (x0 : Vec F S2048x1024 .f32) (x1 : Vec F S1024x3072 .bf16) (x2 : Vec F S1x1024 .f32) (x3 : Vec F S1024x16 .f32)
    (x4 : Vec F S16x1024 .f32) : Vec F S2048x1024 .f32 :=
  View.canon [⟨r0_0, k0_pay1 (View.ld x0 r0_0) (View.ld x1 r0_1) (View.ld x2 r0_2) (View.ld x3 r0_3) (View.ld x4 r0_4)⟩]

/-- The one store covers the buffer. -/
theorem cover0_5 (p0 : Vec F S2048x1024 .f32) (y : S2048x1024.Idx) :
    ∃ pc ∈ ([⟨r0_0, p0⟩] : List (View.Piece (Elt F) S2048x1024 .f32)), y ∈ pc.1.set :=
  View.cover_of_tiled [⟨r0_0, p0⟩] S2048x1024.size (by rfl) y

/-! ## The body -/

set_option maxHeartbeats 1000000 in
/-- The body on whole staging buffers, the inputs' at contents `x0 … x4` and the output's at anything, runs to the
    continuation holding the inputs' as they were and the output's at `out0_5` of them. -/
theorem sound_kernel (c : Dev nD) (E : Set ℕ) (i : grid0.Coords)
    (arg1 : Memref sig .tc .vmem S2048x1024 .f32) (harg1 : arg1.IsWhole) (arg2 : Memref sig .tc .vmem S1024x3072 .bf16) (harg2 : arg2.IsWhole)
    (arg3 : Memref sig .tc .vmem S1x1024 .f32) (harg3 : arg3.IsWhole) (arg4 : Memref sig .tc .vmem S1024x16 .f32) (harg4 : arg4.IsWhole)
    (arg5 : Memref sig .tc .vmem S16x1024 .f32) (harg5 : arg5.IsWhole) (arg6 : Memref sig .tc .vmem S2048x1024 .f32) (harg6 : arg6.IsWhole)
    (x0 : Vec F S2048x1024 .f32) (x1 : Vec F S1024x3072 .bf16) (x2 : Vec F S1x1024 .f32) (x3 : Vec F S1024x16 .f32) (x4 : Vec F S16x1024 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E
          (cc0__fused_kernel i arg1 harg1 arg2 harg2 arg3 harg3 arg4 harg4 arg5 harg5 arg6 harg6) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The kernel's proof data -/

/-- On core `c`: the arrays as the kernel finds them; after the body at point `t` each input's buffer at its block and
    the output's at `out0_5` of the input blocks; nothing else held, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
  Φ _ := Pipeline.ΦA spec0 c
  q _ := fullShare
  owed _ := 0

/-- The proof data's arrays are the entry contents (the definition projected; `V` is never unfolded). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = out0_5 (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so `sound_kernel` applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of the host program ends, nothing faulting, with each
    of the kernel's arrays at what the write-backs leave and every other unscoped buffer as the last host line leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The same run with the result array named and the seven argument arrays as launched. -/
theorem run_named : θ_run defs (onTc (τ := τ) (main (F := F))) ⟨m, fun _ => 0, ρ⟩ (fun r => ∀ c : Dev nD,
      r.2.mem ((c.tc : Thread nD τ).loc main_v12) = Pipeline.afterTail₀ cfgs (dats m) 0 (V0 m) [hostOps1] c main_v12
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c).2 main_v12 (Pipeline.mem_restRefs_of main_v12 (by decide) (by decide)),
     ((h c).2 main_arg0 (Pipeline.mem_restRefs_of main_arg0 (by decide) (by decide))).trans (arg_kept m (dats m) c main_arg0 (by decide) (by decide) (by decide)),
     ((h c).2 main_arg1 (Pipeline.mem_restRefs_of main_arg1 (by decide) (by decide))).trans (arg_kept m (dats m) c main_arg1 (by decide) (by decide) (by decide)),
     ((h c).2 main_arg2 (Pipeline.mem_restRefs_of main_arg2 (by decide) (by decide))).trans (arg_kept m (dats m) c main_arg2 (by decide) (by decide) (by decide)),
     ((h c).2 main_arg3 (Pipeline.mem_restRefs_of main_arg3 (by decide) (by decide))).trans (arg_kept m (dats m) c main_arg3 (by decide) (by decide) (by decide)),
     ((h c).2 main_arg4 (Pipeline.mem_restRefs_of main_arg4 (by decide) (by decide))).trans (arg_kept m (dats m) c main_arg4 (by decide) (by decide) (by decide)),
     ((h c).2 main_arg5 (Pipeline.mem_restRefs_of main_arg5 (by decide) (by decide))).trans (arg_kept m (dats m) c main_arg5 (by decide) (by decide) (by decide)),
     ((h c).2 main_arg6 (Pipeline.mem_restRefs_of main_arg6 (by decide) (by decide))).trans (arg_kept m (dats m) c main_arg6 (by decide) (by decide) (by decide))⟩)
    (run_main m ρ)

/-- The frame: the run ends, nothing faults, the seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_named m ρ)

end Cert.KernelIdeal.Frm

end
-- ==== Proof.Spec.lean ====
/-
  A linear layer with a gated low-rank correction and a second, residual projection, on the extended reals.

  For one input row u (1024 entries) and output column o the layer's value is
      (u·W[o,·] + bias[o]) + σ(u·Wg[o,·]) · ((Σ_r (u·Wd[r,·]) · Wu[o,r]) · 2) + u·Wr[o,·],
  where u·A[o,·] = Σ_k u[k]·A[o,k] and σ z = 1/(1 + e^(−z)). Two spellings of one cell are stated: over the weights as
  given (each stored output-major, contracted on its last axis), and over their transposes, the three full-width
  ones laid side by side as the column bands [0,1024), [1024,2048), [2048,3072) of one 1024×3072 array. Each cell is a
  sum over k of its own column, so passing from one spelling to the other moves no term between sums: it is a renaming
  of entries, valid at infinite values too.
-/
import Idealize.ShloMosaic.PureOps.Ideal
import Idealize.ShloMosaic.PureOps.Ideal.Laws
import Idealize.ShloMosaic.Lib.ValueIdx

noncomputable section

namespace Cert.GatedLora

open Idealize.ShloMosaic Idealize.ShloMosaic.ValueIdx

/-- The low-rank path's scale, the float 2.0, kept as its word: the same word stands on both sides. -/
abbrev two : EReal := Ideal.ofBits .f32 0x40000000#32

/-- The float 1.0 is the real 1. -/
theorem ofBits_one_f32 : Ideal.ofBits .f32 0x3F800000#32 = 1 := by
  simp [Ideal.ofBits, Ideal.ieee]
  rw [← EReal.coe_mul, ← EReal.coe_one]
  exact congrArg _ (by norm_num)

/-- σ spelt with the float 1.0 twice, a negation, an exponential, a sum and a quotient, is σ. -/
theorem logistic_spelt (z : EReal) :
    Ideal.div (Ideal.ofBits .f32 0x3F800000#32) (Ideal.ofBits .f32 0x3F800000#32 + Ideal.exp (-z)) = Ideal.logistic z := by
  rw [ofBits_one_f32]; rfl

/-- One output cell from the input row `u` and the weights as given. -/
def cell (u : Fin 1024 → EReal) (W : FVec Ideal ⟨2, ![1024, 1024]⟩ .f32) (bias : FVec Ideal ⟨1, ![1024]⟩ .f32)
    (Wd : FVec Ideal ⟨2, ![16, 1024]⟩ .f32) (Wu : FVec Ideal ⟨2, ![1024, 16]⟩ .f32)
    (Wg Wr : FVec Ideal ⟨2, ![1024, 1024]⟩ .f32) (o : Fin 1024) : EReal :=
  ((∑ k : Fin 1024, u k * W (ix2 o k)) + bias (ix1 o))
    + Ideal.logistic (∑ k : Fin 1024, u k * Wg (ix2 o k))
      * ((∑ r : Fin 16, (∑ k : Fin 1024, u k * Wd (ix2 r k)) * Wu (ix2 o r)) * two)
    + ∑ k : Fin 1024, u k * Wr (ix2 o k)

/-- Column `q` of band `n` (n = 0, 1, 2) of a 3072-wide array. -/
def band (n : Fin 3) (q : Fin 1024) : Fin 3072 := ⟨n.val * 1024 + q.val, by have := n.isLt; have := q.isLt; omega⟩

/-- The same cell from the transposed weights, the three full-width ones side by side in `Wcat`. -/
def cellT (u : Fin 1024 → EReal) (Wcat : FVec Ideal ⟨2, ![1024, 3072]⟩ .bf16) (brow : FVec Ideal ⟨2, ![1, 1024]⟩ .f32)
    (WdT : FVec Ideal ⟨2, ![1024, 16]⟩ .f32) (WuT : FVec Ideal ⟨2, ![16, 1024]⟩ .f32) (q : Fin 1024) : EReal :=
  ((∑ k : Fin 1024, u k * Wcat (ix2 k (band 0 q))) + brow (ix2 0 q))
    + Ideal.logistic (∑ k : Fin 1024, u k * Wcat (ix2 k (band 1 q)))
      * ((∑ r : Fin 16, (∑ k : Fin 1024, u k * WdT (ix2 k r)) * WuT (ix2 r q)) * two)
    + ∑ k : Fin 1024, u k * Wcat (ix2 k (band 2 q))

/-- The two spellings agree when each transposed entry is the given one. -/
theorem cellT_eq_cell (u : Fin 1024 → EReal) (W : FVec Ideal ⟨2, ![1024, 1024]⟩ .f32) (bias : FVec Ideal ⟨1, ![1024]⟩ .f32)
    (Wd : FVec Ideal ⟨2, ![16, 1024]⟩ .f32) (Wu : FVec Ideal ⟨2, ![1024, 16]⟩ .f32)
    (Wg Wr : FVec Ideal ⟨2, ![1024, 1024]⟩ .f32)
    (Wcat : FVec Ideal ⟨2, ![1024, 3072]⟩ .bf16) (brow : FVec Ideal ⟨2, ![1, 1024]⟩ .f32)
    (WdT : FVec Ideal ⟨2, ![1024, 16]⟩ .f32) (WuT : FVec Ideal ⟨2, ![16, 1024]⟩ .f32) (q : Fin 1024)
    (h0 : ∀ k : Fin 1024, Wcat (ix2 k (band 0 q)) = W (ix2 q k))
    (h1 : ∀ k : Fin 1024, Wcat (ix2 k (band 1 q)) = Wg (ix2 q k))
    (h2 : ∀ k : Fin 1024, Wcat (ix2 k (band 2 q)) = Wr (ix2 q k))
    (hb : brow (ix2 0 q) = bias (ix1 q))
    (hd : ∀ (k : Fin 1024) (r : Fin 16), WdT (ix2 k r) = Wd (ix2 r k))
    (hu : ∀ r : Fin 16, WuT (ix2 r q) = Wu (ix2 q r)) :
    cellT u Wcat brow WdT WuT q = cell u W bias Wd Wu Wg Wr q := by
  unfold cellT cell
  simp only [h0, h1, h2, hb, hd, hu]

/-- The layer on a [4, 8192, 1024] input: cell (b, s, o) from row (b, s). -/
def G (x : FVec Ideal ⟨3, ![4, 8192, 1024]⟩ .f32) (W : FVec Ideal ⟨2, ![1024, 1024]⟩ .f32) (bias : FVec Ideal ⟨1, ![1024]⟩ .f32)
    (Wd : FVec Ideal ⟨2, ![16, 1024]⟩ .f32) (Wu : FVec Ideal ⟨2, ![1024, 16]⟩ .f32)
    (Wg Wr : FVec Ideal ⟨2, ![1024, 1024]⟩ .f32) : FVec Ideal ⟨3, ![4, 8192, 1024]⟩ .f32 :=
  fun i => cell (fun k => x (ix3 (i 0) (i 1) k)) W bias Wd Wu Wg Wr (i 2)

theorem G_ix3 (x : FVec Ideal ⟨3, ![4, 8192, 1024]⟩ .f32) (W : FVec Ideal ⟨2, ![1024, 1024]⟩ .f32) (bias : FVec Ideal ⟨1, ![1024]⟩ .f32)
    (Wd : FVec Ideal ⟨2, ![16, 1024]⟩ .f32) (Wu : FVec Ideal ⟨2, ![1024, 16]⟩ .f32)
    (Wg Wr : FVec Ideal ⟨2, ![1024, 1024]⟩ .f32) (b : Fin 4) (s : Fin 8192) (o : Fin 1024) :
    G x W bias Wd Wu Wg Wr (ix3 b s o) = cell (fun k => x (ix3 b s k)) W bias Wd Wu Wg Wr o := rfl

end Cert.GatedLora

end
-- ==== Proof.LibPlainDot.lean ====
/-
  A plain matrix product at the ideal values, read at an index.
  For the dimension numbers of an M×K by K×N product (`DotDims.plain M K N`: the left operand contracted on its last axis,
  the right on its first, no batch axis) both the kernel's `tpu.matmul` into a zero accumulator and the host's
  `dot_general` are, at the output index (a, b), the sum over k < K of l(a, k) · r(k, b) on the extended reals.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The left operand's row is the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

/-- The left operand's column is the contraction index. -/
theorem lhs1 (i : (⟨2, ![M, N]⟩ : Shape).Idx) (q : (DotDims.plain M K N).contr.Idx) :
    ((DotDims.plain M K N).lhsIdx i q 1).val = (q ⟨0, by rw [(DotDims.plain M K N).rank_contr]; exact Nat.one_pos⟩).val :=
  (DotDims.plain M K N).lhsIdx_val_of_single rfl i q

/-- The right operand's row is the contraction index. -/
theorem rhs0 (i : (⟨2, ![M, N]⟩ : Shape).Idx) (q : (DotDims.plain M K N).contr.Idx) :
    ((DotDims.plain M K N).rhsIdx i q 0).val = (q ⟨0, by rw [(DotDims.plain M K N).rank_contr]; exact Nat.one_pos⟩).val :=
  (DotDims.plain M K N).rhsIdx_val_of_single rfl i q

/-- The right operand's column is the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum, re-indexed by k < K. -/
theorem sum_plain {φ₁ φ₂ : FTy} (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs0 M K N _ _
      | ⟨1, _⟩ => exact (lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (rhs0 M K N _ _).trans hk
      | ⟨1, _⟩ => exact rhs1 M K N _ _)
  exact congr (congrArg HMul.hMul (congrArg l el)) (congrArg r er)

/-- The kernel's product into a zero accumulator, at an index. -/
theorem matmul_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    matmul (F := Ideal) (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain M K N l r j)

/-- The host's product, at an index. -/
theorem dotGeneral_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) prec l r j
      = ∑ k : Fin K, l (ix2 (j 0) k) * r (ix2 k (j 1)) :=
  (Ideal.dotGeneral_apply (DotDims.plain M K N) prec .single l r j).trans (sum_plain M K N l r j)

end Cert.LibPlainDot

end
-- ==== Proof.Payload.lean ====
/-
  The kernel body's stored value, read at one element.

  At row p and column q of a 2048×1024 block the body's arithmetic is, over the extended reals,
      ((Σ_k v[p,k]·C[k,q] + brow[0,q]) + σ(Σ_k v[p,k]·C[k,1024+q]) · ((Σ_r (Σ_k v[p,k]·D[k,r])·E[r,q]) · 2)) + Σ_k v[p,k]·C[k,2048+q],
  where C is the 1024×3072 array of three weight matrices side by side, D is 1024×16 and E is 16×1024: one wide product
  into a zero accumulator is cut into its three column bands, the bias row is repeated down the rows, and the two
  narrow products are chained. A cast to the same shape and a change of float format change no value.
-/
import proofs.«172807_j12850542150462_2_alg».proof.Proof.Gen.KernelIdeal.Skeleton
import proofs.«172807_j12850542150462_2_alg».proof.Proof.Spec
import proofs.«172807_j12850542150462_2_alg».proof.Proof.LibPlainDot
import Idealize.ShloMosaic.Lib.Pipeline.Value

noncomputable section

namespace Cert.GatedLora

open Idealize.ShloMosaic Idealize.ShloMosaic.ValueIdx Cert.KernelIdeal

/-- A unit-stride slice of 1024 columns starting at column `off` of a 2048×3072 array, at (p, q), is the array at (p, off + q). -/
theorem slice_cols (off : Nat) (x : FVec Ideal S2048x3072 .f32) (h : S2048x3072.Slices ![0, off] S2048x1024)
    (p : Fin 2048) (q : Fin 1024) (c : Fin 3072) (hc : c.val = off + q.val) :
    extractStridedSlice S2048x1024 ![0, off] x h (ix2 p q) = x (ix2 p c) :=
  extractStridedSlice_apply ![0, off] x h (ix2 p q) (ix2 p c) (fun a => by
    match a with
    | ⟨0, _⟩ => show p.val = 0 + p.val; omega
    | ⟨1, _⟩ => exact hc)

/-- The bias row repeated down 2048 rows, at (p, q), is the row at (0, q). -/
theorem bias_rows (x : FVec Ideal S1x1024 .f32) (h : S1x1024.Broadcasts S2048x1024) (p : Fin 2048) (q : Fin 1024) :
    broadcastTo S2048x1024 x h (ix2 p q) = x (ix2 0 q) :=
  broadcastTo_apply x h (ix2 p q) (ix2 0 q) (fun a => by
    match a with
    | ⟨0, _⟩ => show 0 = if (1 : Nat) = 1 then 0 else p.val; rw [if_pos rfl]
    | ⟨1, _⟩ => show q.val = if (1024 : Nat) = 1 then 0 else q.val; rw [if_neg (by decide)])

/-- The wide product into a zero accumulator, at (p, c). -/
theorem mm_wide (l : FVec Ideal S2048x1024 .bf16) (r : FVec Ideal S1024x3072 .bf16) (p : Fin 2048) (c : Fin 3072) :
    matmul (F := Ideal) dot_S2048x1024_S1024x3072_S2048x3072_1_0_0_1_n_n none l r (constant S2048x3072 .f32 0x00000000#32) (ix2 p c)
      = ∑ k : Fin 1024, l (ix2 p k) * r (ix2 k c) :=
  Cert.LibPlainDot.matmul_plain 2048 1024 3072 none l r (ix2 p c)

/-- The product down to rank 16 into a zero accumulator, at (p, r). -/
theorem mm_down (l : FVec Ideal S2048x1024 .f32) (r : FVec Ideal S1024x16 .f32) (p : Fin 2048) (c : Fin 16) :
    matmul (F := Ideal) dot_S2048x1024_S1024x16_S2048x16_1_0_0_1_n_n (some .fp32) l r (constant S2048x16 .f32 0x00000000#32) (ix2 p c)
      = ∑ k : Fin 1024, l (ix2 p k) * r (ix2 k c) :=
  Cert.LibPlainDot.matmul_plain 2048 1024 16 (some .fp32) l r (ix2 p c)

/-- The product back up from rank 16 into a zero accumulator, at (p, q). -/
theorem mm_up (l : FVec Ideal S2048x16 .f32) (r : FVec Ideal S16x1024 .f32) (p : Fin 2048) (q : Fin 1024) :
    matmul (F := Ideal) dot_S2048x16_S16x1024_S2048x1024_1_0_0_1_n_n (some .fp32) l r (constant S2048x1024 .f32 0x00000000#32) (ix2 p q)
      = ∑ k : Fin 16, l (ix2 p k) * r (ix2 k q) :=
  Cert.LibPlainDot.matmul_plain 2048 16 1024 (some .fp32) l r (ix2 p q)

/-- The logistic function is applied element by element. -/
theorem logistic_at {s : Shape} (x : FVec Ideal s .f32) (i : s.Idx) : logistic x i = Ideal.logistic (x i) := rfl

/-- The body's stored value at (p, q) is the layer's cell over the transposed weights, from row p of the input block. -/
theorem pay_apply (v0 : Vec Ideal Cert.KernelIdeal.S2048x1024 .f32) (v3 : Vec Ideal Cert.KernelIdeal.S1024x3072 .bf16)
    (v7 : Vec Ideal Cert.KernelIdeal.S1x1024 .f32) (v14 : Vec Ideal Cert.KernelIdeal.S1024x16 .f32)
    (v17 : Vec Ideal Cert.KernelIdeal.S16x1024 .f32) (p : Fin 2048) (q : Fin 1024) :
    Cert.KernelIdeal.Gen.k0_pay1 (F := Ideal) v0 v3 v7 v14 v17 (ix2 p q) = cellT (fun k => v0 (ix2 p k)) v3 v7 v14 v17 q := by
  unfold Cert.KernelIdeal.Gen.k0_pay1
  simp only [shapeCast_self, addf_apply, mulf_apply, broadcast_apply, logistic_at]
  rw [slice_cols 0 _ _ p q (band 0 q) (by simp [band]), slice_cols 1024 _ _ p q (band 1 q) (by simp [band]),
    slice_cols 2048 _ _ p q (band 2 q) (by simp [band]), bias_rows, mm_wide, mm_wide, mm_wide, mm_up]
  simp only [mm_down, truncf_apply]
  rfl

end Cert.GatedLora

end
-- ==== Proof.KernelValue.lean ====
/-
  What the fused kernel leaves in its result array, on the extended reals.

  Row block t of the 32768×1024 result is the body's stored payload of the five input blocks at t. The x block at t is
  rows 2048·t … 2048·t + 2047 of the flattened input, and the four weight blocks are the whole arrays at every t, so
  entry (p, q) of block t is the cell of row 2048·t + p and column q: the sixteen blocks are the restrictions of ONE
  function of the five staged arrays. The blocks tile the array (row r lies in block r / 2048), so after the run the
  array is that function, and the last host line re-reads it with the leading axis split in two.
-/
import proofs.«172807_j12850542150462_2_alg».proof.Proof.KernelIdealFrame
import proofs.«172807_j12850542150462_2_alg».proof.Proof.Payload
import proofs.«172807_j12850542150462_2_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Frm

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

theorem hz : (![0, 0] : Fin 2 → Nat) = fun _ => 0 := funext fun a => by fin_cases a <;> rfl

/-- The 32768×1024 result as ONE function of the five arrays the kernel stages: entry (r, q) is the cell of row r of the
    flattened input at column q. -/
def flat (X : S32768x1024.Idx → EReal) (Wcat : S1024x3072.Idx → EReal) (brow : S1x1024.Idx → EReal)
    (WdT : S1024x16.Idx → EReal) (WuT : S16x1024.Idx → EReal) : S32768x1024.Idx → EReal :=
  fun i => Cert.GatedLora.cellT (fun k => X (ix2 (i 0) k)) Wcat brow WdT WuT (i 1)

/-- The body's payload at (p, q) is `flat` at (r, q) when row p of the x block is row r of the flattened input and the
    four weight blocks are the whole weight arrays. -/
theorem pay_flat (x0 : Vec Ideal S2048x1024 .f32) (x1 : Vec Ideal S1024x3072 .bf16) (x2 : Vec Ideal S1x1024 .f32)
    (x3 : Vec Ideal S1024x16 .f32) (x4 : Vec Ideal S16x1024 .f32)
    (X : S32768x1024.Idx → EReal) (Wcat : S1024x3072.Idx → EReal) (brow : S1x1024.Idx → EReal)
    (WdT : S1024x16.Idx → EReal) (WuT : S16x1024.Idx → EReal)
    (p : Fin 2048) (q : Fin 1024) (r : Fin 32768)
    (h0 : ∀ k : Fin 1024, x0 (ix2 p k) = X (ix2 r k)) (h1 : x1 = Wcat) (h2 : x2 = brow) (h3 : x3 = WdT) (h4 : x4 = WuT) :
    k0_pay1 (F := Ideal) x0 x1 x2 x3 x4 (ix2 p q) = flat X Wcat brow WdT WuT (ix2 r q) := by
  subst h1 h2 h3 h4
  refine (Cert.GatedLora.pay_apply x0 x1 x2 x3 x4 p q).trans ?_
  have hu : (fun k : Fin 1024 => x0 (ix2 p k)) = fun k => X (ix2 r k) := funext h0
  rw [hu]
  rfl

/-- The printed index maps over the sixteen points: the x block and the result block move with the point along the
    rows, the four weight blocks stay at the origin. -/
theorem idx_facts : ∀ t : Fin cfg0.N, win0_0.index t (0 : Fin 2) = t.val ∧ win0_0.index t (1 : Fin 2) = 0
    ∧ win0_5.index t (0 : Fin 2) = t.val ∧ win0_5.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- WHAT POINT t WRITES BACK is block t of `flat` of the five staged arrays. -/
theorem flushed_eq (c : Dev nD) (t : Fin cfg0.N) :
    (dats m 0 c).flushed 5 t = ((cfg0.win 5).blk t).view.read (Elt Ideal)
      (flat (V m c main_v0) (V m c main_v7) (V m c main_v10) (V m c main_v8) (V m c main_v9)) := by
  show (cfg0.win 5).cut (grid0.coords t) ((dats m 0 c).after 5 t) = _
  rw [after0_5]
  unfold out0_5
  rw [View.canon_unit_zero hz]
  simp only [View.ld_unit_zero (S := S2048x1024) hz, View.ld_unit_zero (S := S1024x3072) hz, View.ld_unit_zero (S := S1x1024) hz,
    View.ld_unit_zero (S := S1024x16) hz, View.ld_unit_zero (S := S16x1024) hz]
  obtain ⟨e00, e01, e50, e51, e10, e11, e20, e21, e30, e31, e40, e41⟩ := idx_facts t
  have ht : t.val < 16 := by have h := t.isLt; have hN : cfg0.N = 16 := N_0; omega
  have w1 : iblk m c 1 t = V m c main_v7 := by
    funext y
    show V m c main_v7 (((cfg0.win 1).blk t).view.emb y) = V m c main_v7 y
    have he : ((cfg0.win 1).blk t).view.emb y = y := by
      funext a; apply Fin.ext
      match a with
      | ⟨0, _⟩ => show win0_1.index t (0 : Fin 2) * 1024 + 1 * (y 0).val = (y 0).val; omega
      | ⟨1, _⟩ => show win0_1.index t (1 : Fin 2) * 3072 + 1 * (y 1).val = (y 1).val; omega
    rw [he]
  have w2 : iblk m c 2 t = V m c main_v10 := by
    funext y
    show V m c main_v10 (((cfg0.win 2).blk t).view.emb y) = V m c main_v10 y
    have he : ((cfg0.win 2).blk t).view.emb y = y := by
      funext a; apply Fin.ext
      match a with
      | ⟨0, _⟩ => show win0_2.index t (0 : Fin 2) * 1 + 1 * (y 0).val = (y 0).val; omega
      | ⟨1, _⟩ => show win0_2.index t (1 : Fin 2) * 1024 + 1 * (y 1).val = (y 1).val; omega
    rw [he]
  have w3 : iblk m c 3 t = V m c main_v8 := by
    funext y
    show V m c main_v8 (((cfg0.win 3).blk t).view.emb y) = V m c main_v8 y
    have he : ((cfg0.win 3).blk t).view.emb y = y := by
      funext a; apply Fin.ext
      match a with
      | ⟨0, _⟩ => show win0_3.index t (0 : Fin 2) * 1024 + 1 * (y 0).val = (y 0).val; omega
      | ⟨1, _⟩ => show win0_3.index t (1 : Fin 2) * 16 + 1 * (y 1).val = (y 1).val; omega
    rw [he]
  have w4 : iblk m c 4 t = V m c main_v9 := by
    funext y
    show V m c main_v9 (((cfg0.win 4).blk t).view.emb y) = V m c main_v9 y
    have he : ((cfg0.win 4).blk t).view.emb y = y := by
      funext a; apply Fin.ext
      match a with
      | ⟨0, _⟩ => show win0_4.index t (0 : Fin 2) * 16 + 1 * (y 0).val = (y 0).val; omega
      | ⟨1, _⟩ => show win0_4.index t (1 : Fin 2) * 1024 + 1 * (y 1).val = (y 1).val; omega
    rw [he]
  funext j
  obtain ⟨p, q, rfl⟩ : ∃ (p : Fin 2048) (q : Fin 1024), j = ix2 p q := ⟨j 0, j 1, eq_ix2 j⟩
  have hp : p.val < 2048 := p.isLt
  let r : Fin 32768 := ⟨t.val * 2048 + p.val, by omega⟩
  have he5 : ((cfg0.win 5).blk t).view.emb (ix2 p q) = ix2 r q := by
    funext a; apply Fin.ext
    match a with
    | ⟨0, _⟩ => show win0_5.index t (0 : Fin 2) * 2048 + 1 * p.val = t.val * 2048 + p.val; omega
    | ⟨1, _⟩ => show win0_5.index t (1 : Fin 2) * 1024 + 1 * q.val = q.val; omega
  have h0 : ∀ k : Fin 1024, iblk m c 0 t (ix2 p k) = V m c main_v0 (ix2 r k) := fun k => by
    show V m c main_v0 (((cfg0.win 0).blk t).view.emb (ix2 p k)) = V m c main_v0 (ix2 r k)
    have he : ((cfg0.win 0).blk t).view.emb (ix2 p k) = ix2 r k := by
      funext a; apply Fin.ext
      match a with
      | ⟨0, _⟩ => show win0_0.index t (0 : Fin 2) * 2048 + 1 * p.val = t.val * 2048 + p.val; omega
      | ⟨1, _⟩ => show win0_0.index t (1 : Fin 2) * 1024 + 1 * k.val = k.val; omega
    rw [he]
  show k0_pay1 (F := Ideal) (iblk m c 0 t) (iblk m c 1 t) (iblk m c 2 t) (iblk m c 3 t) (iblk m c 4 t) (ix2 p q)
    = flat (V m c main_v0) (V m c main_v7) (V m c main_v10) (V m c main_v8) (V m c main_v9) (((cfg0.win 5).blk t).view.emb (ix2 p q))
  rw [he5]
  exact pay_flat (iblk m c 0 t) (iblk m c 1 t) (iblk m c 2 t) (iblk m c 3 t) (iblk m c 4 t)
    (V m c main_v0) (V m c main_v7) (V m c main_v10) (V m c main_v8) (V m c main_v9) p q r h0 w1 w2 w3 w4

/-- An index of the result array is in point t's block iff each coordinate is in the block's range on its axis. -/
theorem mem_blk (t : Fin cfg0.N) (i : S32768x1024.Idx) :
    i ∈ ((cfg0.win 5).blk t).view.set ↔ ∀ a : Fin 2, win0_5.index t a * S2048x1024.size a ≤ (i a).val
      ∧ (i a).val < win0_5.index t a * S2048x1024.size a + S2048x1024.size a := by
  show i ∈ ((View.whole main_v11).slice (win0_5.rect t)).set ↔ _
  rw [View.set_slice_whole, Rect.mem_set_unit]
  exact Iff.rfl

/-- The blocks tile the array: row r lies in the block of point r / 2048. -/
theorem cover (i : S32768x1024.Idx) :
    ∃ t : Fin cfg0.N, (cfg0.win 5).flush t = true ∧ i ∈ ((cfg0.win 5).blk t).view.set := by
  have hi0 : (i 0).val < 32768 := (i 0).isLt
  have hi1 : (i 1).val < 1024 := (i 1).isLt
  have hN : cfg0.N = 16 := N_0
  let t : Fin cfg0.N := ⟨(i 0).val / 2048, by rw [hN]; omega⟩
  have htv : t.val = (i 0).val / 2048 := rfl
  obtain ⟨-, -, e50, e51, -⟩ := idx_facts t
  refine ⟨t, flush0_5 t, ?_⟩
  rw [mem_blk]
  intro a
  match a with
  | ⟨0, _⟩ =>
    show win0_5.index t (0 : Fin 2) * 2048 ≤ (i 0).val ∧ (i 0).val < win0_5.index t (0 : Fin 2) * 2048 + 2048
    omega
  | ⟨1, _⟩ =>
    show win0_5.index t (1 : Fin 2) * 1024 ≤ (i 1).val ∧ (i 1).val < win0_5.index t (1 : Fin 2) * 1024 + 1024
    omega

/-- THE RESULT ARRAY after the run: `flat` of the five staged arrays. -/
theorem final (c : Dev nD) : (dats m 0 c).arrAt 5 cfg0.N
    = flat (V m c main_v0) (V m c main_v7) (V m c main_v10) (V m c main_v8) (V m c main_v9) :=
  (dats m 0 c).arrAt_eq_of_cover 5 _ (fun t _ => flushed_eq m c t) cover

end Cert.KernelIdeal.Frm

end
-- ==== Proof.LibNary3.lean ====
/-
  A host operation of three operands, read at its result.

  An operation over a family of operand references leaves in its result buffer its function of the family of the
  operands' contents. Over the LITERAL family of three references ![x0, x1, x2] that is the function of the three
  contents each read at its own reference (rather than under a binder at `![…] k`), so that a fold over a line of
  operations can go on rewriting the three operands' contents.
-/
import Idealize.ShloMosaic.Lib.StableHlo.Run

noncomputable section

namespace Cert.LibNary3

open Idealize.ShloMosaic Idealize.ShloMosaic.StableHlo Idealize.ShloMosaic.TcCoe

variable {τ : Topo} {sig : RefSig} {Val : EltTy → Type}
variable {x0 x1 x2 y : Ref sig .tc}

/-- The result of a three-operand operation, each operand's contents at its own reference. -/
theorem nary3_result
    (f : ((k : Fin 3) → ((![x0, x1, x2] : Fin 3 → Ref sig .tc) k).ty.Contents Val) → y.ty.Contents Val) (hxs hy)
    (F : Valuation τ sig Val) :
    (nary (τ := τ) ![x0, x1, x2] y f hxs hy).result F (Proc.devRef .tc y)
      = f (Fin.cons (F (Proc.devRef .tc x0)) (Fin.cons (F (Proc.devRef .tc x1)) (Fin.cons (F (Proc.devRef .tc x2)) (fun i => i.elim0)))) := by
  rw [nary_result]; congr 1; funext k; fin_cases k <;> rfl

end Cert.LibNary3

end
-- ==== Proof.HostReads.lean ====
/-
  What the five arrays the kernel stages hold when it is entered, entry by entry, in terms of the memory at launch.

  Before the kernel the host program re-lays its arguments and writes nothing else:
    the input x, [4, 8192, 1024], flattened to 32768 rows, so that row b·8192 + s is row (b, s);
    the three 1024×1024 weights each transposed, their format narrowed (no change of value on the extended reals), and
      laid side by side as one 1024×3072 array, so that entry (k, n·1024 + q) of it is entry (q, k) of the n-th weight;
    the two low-rank weights transposed;
    the bias, [1024], made a 1×1024 row.
  Each staged array is first written as ONE expression of the launch memory (the host lines folded, each line's result
  read at its own buffer and every other buffer left as it was), then read at an index: a flattening by row-major
  position, a transpose by swapping the coordinates, a side-by-side array in the band that holds the column.
-/
import proofs.«172807_j12850542150462_2_alg».proof.Proof.KernelIdealFrame
import proofs.«172807_j12850542150462_2_alg».proof.Proof.LibNary3
import proofs.«172807_j12850542150462_2_alg».proof.Proof.Spec
import Idealize.ShloMosaic.Lib.Pipeline.Value
import Idealize.ShloMosaic.Lib.ValueLayout
import Idealize.ShloMosaic.Lib.ValueIdx

set_option maxRecDepth 16384

noncomputable section

namespace Cert.KernelIdeal.Frm

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-! ## The staged arrays, each as one expression of the launch memory -/

/-- The flattened input. -/
theorem whole_v0 (c : Dev nD) : (V m c main_v0 : S32768x1024.Idx → EReal)
    = shapeCast S32768x1024 (m ((c : Thread nD τ).loc main_arg0)) shapeCasts_S4x8192x1024_S32768x1024 := by
  show StableHlo.after hostOps0 (fun b => m (c, b)) (Proc.devRef .tc main_v0) = _
  after_results
  rfl

/-- The down-projection, transposed. -/
theorem whole_v8 (c : Dev nD) : (V m c main_v8 : S1024x16.Idx → EReal)
    = transpose S1024x16 [1, 0] (m ((c : Thread nD τ).loc main_arg3)) transposes_S16x1024_S1024x16_1_0 := by
  show StableHlo.after hostOps0 (fun b => m (c, b)) (Proc.devRef .tc main_v8) = _
  after_results

/-- The up-projection, transposed. -/
theorem whole_v9 (c : Dev nD) : (V m c main_v9 : S16x1024.Idx → EReal)
    = transpose S16x1024 [1, 0] (m ((c : Thread nD τ).loc main_arg4)) transposes_S1024x16_S16x1024_1_0 := by
  show StableHlo.after hostOps0 (fun b => m (c, b)) (Proc.devRef .tc main_v9) = _
  after_results

/-- The bias as a row. -/
theorem whole_v10 (c : Dev nD) : (V m c main_v10 : S1x1024.Idx → EReal)
    = shapeCast S1x1024 (m ((c : Thread nD τ).loc main_arg2)) shapeCasts_S1024_S1x1024 := by
  show StableHlo.after hostOps0 (fun b => m (c, b)) (Proc.devRef .tc main_v10) = _
  after_results
  rfl

/-- The three full-width weights, each transposed and narrowed, side by side. -/
theorem whole_v7 (c : Dev nD) : (V m c main_v7 : S1024x3072.Idx → EReal)
    = (concatenate S1024x3072 1
        [⟨S1024x1024, (truncf (F := Ideal) .bf16 (transpose S1024x1024 [1, 0] (m ((c : Thread nD τ).loc main_arg1) : S1024x1024.Idx → EReal) transposes_S1024x1024_S1024x1024_1_0) bitsLt_bf16_f32 : S1024x1024.Idx → EReal)⟩,
         ⟨S1024x1024, (truncf (F := Ideal) .bf16 (transpose S1024x1024 [1, 0] (m ((c : Thread nD τ).loc main_arg5) : S1024x1024.Idx → EReal) transposes_S1024x1024_S1024x1024_1_0) bitsLt_bf16_f32 : S1024x1024.Idx → EReal)⟩,
         ⟨S1024x1024, (truncf (F := Ideal) .bf16 (transpose S1024x1024 [1, 0] (m ((c : Thread nD τ).loc main_arg6) : S1024x1024.Idx → EReal) transposes_S1024x1024_S1024x1024_1_0) bitsLt_bf16_f32 : S1024x1024.Idx → EReal)⟩]
        concatenates_S1024x1024_S1024x1024_S1024x1024_S1024x3072_d1 : S1024x3072.Idx → EReal) := by
  show StableHlo.after hostOps0 (fun b => m (c, b)) (Proc.devRef .tc main_v7) = _
  simp only [StableHlo.after_cons, StableHlo.after_nil]
  repeat (first
    | rw [StableHlo.unary_result] | rw [StableHlo.reshape_result] | rw [Cert.LibNary3.nary3_result]
    | (rw [StableHlo.unary_result_ne]; rotate_left; decide)
    | (rw [StableHlo.reshape_result_ne]; rotate_left; decide)
    | (rw [StableHlo.nary_result_ne]; rotate_left; decide))
  rfl

/-! ## The side-by-side array read in one of its three bands -/

section Bands
variable (A0 A1 A2 : S1024x1024.Idx → EReal)
variable (h : Shape.Concatenates [S1024x1024, S1024x1024, S1024x1024] S1024x3072 1)

/-- Columns [0, 1024) of three 1024×1024 arrays laid side by side are the first. -/
theorem cat_band0 (k q : Fin 1024) :
    concatenate S1024x3072 1 [⟨S1024x1024, A0⟩, ⟨S1024x1024, A1⟩, ⟨S1024x1024, A2⟩] h (ix2 k (Cert.GatedLora.band 0 q)) = A0 (ix2 k q) :=
  concatenate_apply_piece (t := S1024x3072) (1 : Fin 2) [⟨S1024x1024, A0⟩, ⟨S1024x1024, A1⟩, ⟨S1024x1024, A2⟩] h (ix2 k (Cert.GatedLora.band 0 q)) 0 (by show 0 < 3; omega) S1024x1024 A0 rfl rfl 0 rfl (ix2 k q)
    (fun b hb => by match b with | ⟨0, _⟩ => rfl | ⟨1, _⟩ => exact absurd rfl hb)
    (by show 0 + q.val = 0 * 1024 + q.val; omega)

/-- Columns [1024, 2048) are the second. -/
theorem cat_band1 (k q : Fin 1024) :
    concatenate S1024x3072 1 [⟨S1024x1024, A0⟩, ⟨S1024x1024, A1⟩, ⟨S1024x1024, A2⟩] h (ix2 k (Cert.GatedLora.band 1 q)) = A1 (ix2 k q) :=
  concatenate_apply_piece (t := S1024x3072) (1 : Fin 2) [⟨S1024x1024, A0⟩, ⟨S1024x1024, A1⟩, ⟨S1024x1024, A2⟩] h (ix2 k (Cert.GatedLora.band 1 q)) 1 (by show 1 < 3; omega) S1024x1024 A1 rfl rfl 1024 rfl (ix2 k q)
    (fun b hb => by match b with | ⟨0, _⟩ => rfl | ⟨1, _⟩ => exact absurd rfl hb)
    (by show 1024 + q.val = 1 * 1024 + q.val; omega)

/-- Columns [2048, 3072) are the third. -/
theorem cat_band2 (k q : Fin 1024) :
    concatenate S1024x3072 1 [⟨S1024x1024, A0⟩, ⟨S1024x1024, A1⟩, ⟨S1024x1024, A2⟩] h (ix2 k (Cert.GatedLora.band 2 q)) = A2 (ix2 k q) :=
  concatenate_apply_piece (t := S1024x3072) (1 : Fin 2) [⟨S1024x1024, A0⟩, ⟨S1024x1024, A1⟩, ⟨S1024x1024, A2⟩] h (ix2 k (Cert.GatedLora.band 2 q)) 2 (by show 2 < 3; omega) S1024x1024 A2 rfl rfl 2048 rfl (ix2 k q)
    (fun b hb => by match b with | ⟨0, _⟩ => rfl | ⟨1, _⟩ => exact absurd rfl hb)
    (by show 2048 + q.val = 2 * 1024 + q.val; omega)

end Bands

/-! ## The five staged arrays, entry by entry -/

/-- Row b·8192 + s of the flattened input is row (b, s) of the input. -/
theorem entry_x (c : Dev nD) (b : Fin 4) (s : Fin 8192) (k : Fin 1024) (r : Fin 32768) (hr : r.val = b.val * 8192 + s.val) :
    (V m c main_v0 : S32768x1024.Idx → EReal) (ix2 r k) = (m ((c : Thread nD τ).loc main_arg0) : S4x8192x1024.Idx → EReal) (ix3 b s k) :=
  (congrFun (whole_v0 m c) (ix2 r k)).trans (shapeCast_apply _ _ (ix2 r k) (ix3 b s k) (by
    rw [Shape.rowMajor_val_three, Shape.rowMajor_val_two]
    show (b.val * 8192 + s.val) * 1024 + k.val = r.val * 1024 + k.val
    rw [hr]))

/-- Band 0 of the side-by-side array is the main weight, transposed. -/
theorem entry_w (c : Dev nD) (k q : Fin 1024) :
    (V m c main_v7 : S1024x3072.Idx → EReal) (ix2 k (Cert.GatedLora.band 0 q)) = (m ((c : Thread nD τ).loc main_arg1) : S1024x1024.Idx → EReal) (ix2 q k) :=
  (congrFun (whole_v7 m c) _).trans ((cat_band0 _ _ _ _ k q).trans (transpose_ix2_apply _ _ k q))

/-- Band 1 is the gate weight, transposed. -/
theorem entry_wg (c : Dev nD) (k q : Fin 1024) :
    (V m c main_v7 : S1024x3072.Idx → EReal) (ix2 k (Cert.GatedLora.band 1 q)) = (m ((c : Thread nD τ).loc main_arg5) : S1024x1024.Idx → EReal) (ix2 q k) :=
  (congrFun (whole_v7 m c) _).trans ((cat_band1 _ _ _ _ k q).trans (transpose_ix2_apply _ _ k q))

/-- Band 2 is the residual weight, transposed. -/
theorem entry_wr (c : Dev nD) (k q : Fin 1024) :
    (V m c main_v7 : S1024x3072.Idx → EReal) (ix2 k (Cert.GatedLora.band 2 q)) = (m ((c : Thread nD τ).loc main_arg6) : S1024x1024.Idx → EReal) (ix2 q k) :=
  (congrFun (whole_v7 m c) _).trans ((cat_band2 _ _ _ _ k q).trans (transpose_ix2_apply _ _ k q))

/-- The staged down-projection is the given one, transposed. -/
theorem entry_wd (c : Dev nD) (k : Fin 1024) (r : Fin 16) :
    (V m c main_v8 : S1024x16.Idx → EReal) (ix2 k r) = (m ((c : Thread nD τ).loc main_arg3) : S16x1024.Idx → EReal) (ix2 r k) :=
  (congrFun (whole_v8 m c) _).trans (transpose_ix2_apply _ _ k r)

/-- The staged up-projection is the given one, transposed. -/
theorem entry_wu (c : Dev nD) (r : Fin 16) (q : Fin 1024) :
    (V m c main_v9 : S16x1024.Idx → EReal) (ix2 r q) = (m ((c : Thread nD τ).loc main_arg4) : S1024x16.Idx → EReal) (ix2 q r) :=
  (congrFun (whole_v9 m c) _).trans (transpose_ix2_apply _ _ r q)

/-- The staged bias row is the bias. -/
theorem entry_bias (c : Dev nD) (q : Fin 1024) :
    (V m c main_v10 : S1x1024.Idx → EReal) (ix2 (0 : Fin 1) q) = (m ((c : Thread nD τ).loc main_arg2) : S1024.Idx → EReal) (ix1 q) :=
  (congrFun (whole_v10 m c) _).trans (shapeCast_a_1a_apply _ _ 0 q)

end Cert.KernelIdeal.Frm

end
-- ==== Proof.KernelIsSpec.lean ====
/-
  The host program's result is the layer, entry by entry.

  The last host line splits the result array's 32768 rows back into 4 × 8192: entry (b, s, o) of the program's result is
  entry (8192·b + s, o) of the kernel's array, the cell of row 8192·b + s of the flattened input, which is row (b, s) of x.
  The staged weights are the given ones re-laid — a transposed entry (k, o) is the given entry (o, k), band n of the wide
  array is the n-th full-width weight, the bias row is the bias — so the cell over the staged arrays is the cell over the
  arguments: the same sums, term by term.
-/
import proofs.«172807_j12850542150462_2_alg».proof.Proof.KernelValue
import proofs.«172807_j12850542150462_2_alg».proof.Proof.HostReads
import proofs.«172807_j12850542150462_2_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Frm

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ)

/-- The program's result is the kernel's array re-read with its rows split in two. -/
theorem result_cast (c : Dev nD) :
    (Pipeline.afterTail₀ cfgs (dats m) 0 (V0 m) [hostOps1] c main_v12 : S4x8192x1024.Idx → EReal)
      = shapeCast S4x8192x1024 (flat (V m c main_v0) (V m c main_v7) (V m c main_v10) (V m c main_v8) (V m c main_v9))
          shapeCasts_S32768x1024_S4x8192x1024 := by
  unfold Pipeline.afterTail₀
  show StableHlo.after hostOps1 _ (Proc.devRef .tc main_v12) = _
  after_results
  have hw : Pipeline.withArrays (cfgs 0).spec c (V0 m c) (fun w => (dats m 0 c).arrAt w (cfgs 0).N) (Proc.devRef .tc main_v11)
      = flat (V m c main_v0) (V m c main_v7) (V m c main_v10) (V m c main_v8) (V m c main_v9) :=
    (Pipeline.withArrays_arr spec0 launch0.win.arr_inj c _ _ 5).trans (final m c)
  rw [hw]
  rfl

/-- THE RESULT of the host program, from the launch memory: the layer of the seven arguments. -/
theorem result_eq (c : Dev nD) :
    (Pipeline.afterTail₀ cfgs (dats m) 0 (V0 m) [hostOps1] c main_v12 : S4x8192x1024.Idx → EReal)
      = Cert.GatedLora.G (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) := by
  rw [result_cast]
  funext i
  obtain ⟨b, s, o, rfl⟩ : ∃ (b : Fin 4) (s : Fin 8192) (o : Fin 1024), i = ix3 b s o := ⟨i 0, i 1, i 2, eq_ix3 i⟩
  have hb : b.val < 4 := b.isLt
  have hs : s.val < 8192 := s.isLt
  let r : Fin 32768 := ⟨b.val * 8192 + s.val, by omega⟩
  refine (shapeCast_apply _ shapeCasts_S32768x1024_S4x8192x1024 (ix3 b s o) (ix2 r o) (by
    rw [Shape.rowMajor_val_two, Shape.rowMajor_val_three]
    show (b.val * 8192 + s.val) * 1024 + o.val = (b.val * 8192 + s.val) * 1024 + o.val
    rfl)).trans ?_
  show Cert.GatedLora.cellT (fun k => V m c main_v0 (ix2 r k)) (V m c main_v7) (V m c main_v10) (V m c main_v8) (V m c main_v9) o
    = Cert.GatedLora.cell (fun k => m ((c.tc : Thread nD τ).loc main_arg0) (ix3 b s k)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) o
  have hu : (fun k : Fin 1024 => (V m c main_v0 : S32768x1024.Idx → EReal) (ix2 r k))
      = fun k => (m ((c.tc : Thread nD τ).loc main_arg0) : S4x8192x1024.Idx → EReal) (ix3 b s k) :=
    funext fun k => entry_x m c b s k r rfl
  rw [hu]
  exact Cert.GatedLora.cellT_eq_cell _ (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (V m c main_v7) (V m c main_v10) (V m c main_v8) (V m c main_v9) o
    (fun k => entry_w m c k o) (fun k => entry_wg m c k o) (fun k => entry_wr m c k o) (entry_bias m c o)
    (fun k r' => entry_wd m c k r') (fun r' => entry_wu m c r' o)

end Cert.KernelIdeal.Frm

end
-- ==== Proof.RefIsSpec.lean ====
/-
  The reference program, read one element at a time, is the gated low-rank layer.

  At the output index (b, s, o) the reference's twenty-two operations compose to
      ((Σ_k x[b,s,k]·W[o,k] + bias[o]) + (1 / (1 + e^(−Σ_k x[b,s,k]·Wg[o,k]))) · ((Σ_r (Σ_k x[b,s,k]·Wd[r,k])·Wu[o,r]) · 2))
        + Σ_k x[b,s,k]·Wr[o,k],
  each product a sum over its one contracted axis, each broadcast a read at the trailing coordinate, and the quotient
  1 / (1 + e^(−z)) spelt with the float 1.0 the logistic function of z.
-/
import proofs.«172807_j12850542150462_2_alg».proof.Proof.Gen.ReferenceIdeal.Read
import proofs.«172807_j12850542150462_2_alg».proof.Proof.Spec

noncomputable section

namespace Cert.GatedLora

open Idealize.ShloMosaic Idealize.ShloMosaic.ValueIdx Cert.ReferenceIdeal Cert.ReferenceIdeal.Read

/-! The index maps of the reference's operations, at an index given by its coordinates. -/

theorem lidx_v0 (b : Fin 4) (s : Fin 8192) (o : Fin 1024) (k : Fin 1024) : lidx_main_v0 (ix3 b s o) k = ix3 b s k :=
  funext fun a => Fin.ext (by match a with | ⟨0, _⟩ => rfl | ⟨1, _⟩ => rfl | ⟨2, _⟩ => rfl)
theorem ridx_v0 (b : Fin 4) (s : Fin 8192) (o : Fin 1024) (k : Fin 1024) : ridx_main_v0 (ix3 b s o) k = ix2 o k :=
  funext fun a => Fin.ext (by match a with | ⟨0, _⟩ => rfl | ⟨1, _⟩ => rfl)
theorem lidx_v4 (b : Fin 4) (s : Fin 8192) (r : Fin 16) (k : Fin 1024) : lidx_main_v4 (ix3 b s r) k = ix3 b s k :=
  funext fun a => Fin.ext (by match a with | ⟨0, _⟩ => rfl | ⟨1, _⟩ => rfl | ⟨2, _⟩ => rfl)
theorem ridx_v4 (b : Fin 4) (s : Fin 8192) (r : Fin 16) (k : Fin 1024) : ridx_main_v4 (ix3 b s r) k = ix2 r k :=
  funext fun a => Fin.ext (by match a with | ⟨0, _⟩ => rfl | ⟨1, _⟩ => rfl)
theorem lidx_v5 (b : Fin 4) (s : Fin 8192) (o : Fin 1024) (r : Fin 16) : lidx_main_v5 (ix3 b s o) r = ix3 b s r :=
  funext fun a => Fin.ext (by match a with | ⟨0, _⟩ => rfl | ⟨1, _⟩ => rfl | ⟨2, _⟩ => rfl)
theorem ridx_v5 (b : Fin 4) (s : Fin 8192) (o : Fin 1024) (r : Fin 16) : ridx_main_v5 (ix3 b s o) r = ix2 o r :=
  funext fun a => Fin.ext (by match a with | ⟨0, _⟩ => rfl | ⟨1, _⟩ => rfl)
theorem lidx_v8 (b : Fin 4) (s : Fin 8192) (o : Fin 1024) (k : Fin 1024) : lidx_main_v8 (ix3 b s o) k = ix3 b s k :=
  funext fun a => Fin.ext (by match a with | ⟨0, _⟩ => rfl | ⟨1, _⟩ => rfl | ⟨2, _⟩ => rfl)
theorem ridx_v8 (b : Fin 4) (s : Fin 8192) (o : Fin 1024) (k : Fin 1024) : ridx_main_v8 (ix3 b s o) k = ix2 o k :=
  funext fun a => Fin.ext (by match a with | ⟨0, _⟩ => rfl | ⟨1, _⟩ => rfl)
theorem lidx_v15 (b : Fin 4) (s : Fin 8192) (o : Fin 1024) (k : Fin 1024) : lidx_main_v15 (ix3 b s o) k = ix3 b s k :=
  funext fun a => Fin.ext (by match a with | ⟨0, _⟩ => rfl | ⟨1, _⟩ => rfl | ⟨2, _⟩ => rfl)
theorem ridx_v15 (b : Fin 4) (s : Fin 8192) (o : Fin 1024) (k : Fin 1024) : ridx_main_v15 (ix3 b s o) k = ix2 o k :=
  funext fun a => Fin.ext (by match a with | ⟨0, _⟩ => rfl | ⟨1, _⟩ => rfl)
/-- The bias, broadcast twice, is read at the output's last coordinate. -/
theorem idx_v1_v2 (b : Fin 4) (s : Fin 8192) (o : Fin 1024) : idx_main_v1 (idx_main_v2 (ix3 b s o)) = ix1 o :=
  funext fun a => Fin.ext (by match a with | ⟨0, _⟩ => rfl)

/-- The reference's last operation, at every index, is the layer's cell. -/
theorem ref_eq (x0 : FVec Ideal ⟨3, ![4, 8192, 1024]⟩ .f32) (x1 : FVec Ideal ⟨2, ![1024, 1024]⟩ .f32) (x2 : FVec Ideal ⟨1, ![1024]⟩ .f32)
    (x3 : FVec Ideal ⟨2, ![16, 1024]⟩ .f32) (x4 : FVec Ideal ⟨2, ![1024, 16]⟩ .f32) (x5 x6 : FVec Ideal ⟨2, ![1024, 1024]⟩ .f32) :
    Cert.ReferenceIdeal.Read.val_main_v18 (F := Ideal) x0 x1 x2 x3 x4 x5 x6 = G x0 x1 x2 x3 x4 x5 x6 := by
  funext i
  obtain ⟨b, s, o, rfl⟩ : ∃ (b : Fin 4) (s : Fin 8192) (o : Fin 1024), i = ix3 b s o := ⟨i 0, i 1, i 2, eq_ix3 i⟩
  rw [G_ix3]
  rw [val_main_v18_apply, val_main_v17_apply, val_main_v3_apply, val_main_v0_apply, val_main_v2_apply, val_main_v1_apply,
    val_main_v16_apply, val_main_v14_apply, val_main_v13_apply, val_main_cst_1_apply, val_main_v12_apply, val_main_v11_apply,
    val_main_cst_0_apply, val_main_v10_apply, val_main_v9_apply, val_main_v8_apply, val_main_v7_apply, val_main_v5_apply,
    val_main_v6_apply, val_main_cst_apply, val_main_v15_apply]
  simp only [val_main_v4_apply, lidx_v0, ridx_v0, lidx_v4, ridx_v4, lidx_v5, ridx_v5, lidx_v8, ridx_v8, lidx_v15, ridx_v15, idx_v1_v2,
    Ideal.addf_def, Ideal.mulf_def, Ideal.hostDivf_def, Ideal.hostNegf_def, Ideal.negf_def, Ideal.hostUnary_exp_def, Ideal.ofBits_def,
    logistic_spelt]
  rfl

end Cert.GatedLora

end
-- ==== Proof.lean ====
/-
  The fused kernel against its reference, on the extended reals.

  Both programs compute, for every row u of x (4 × 8192 rows of 1024 entries) and every output column o,
      (u·W[o,·] + b[o]) + σ(u·W_gate[o,·]) · ((Σ_r (u·W_down[r,·]) · W_up[o,r]) · 2) + u·W_res[o,·],
  with σ z = 1/(1 + e^(−z)). The reference spells the four projections as four contractions of x with the weights as
  given and σ as a negation, an exponential, a sum with 1 and a quotient of 1; the kernel flattens x to 32768 rows,
  multiplies each block of 2048 rows ONCE by the three full-width weights transposed and laid side by side, cuts the
  product into its three column bands, and uses the matrix unit's σ. Every output cell is, on both sides, the same sums
  over k and r of the same products in the same grouping — a column band of a product is the product with that band, a
  transposed entry is the given entry, a change of float format changes no extended real, and the two spellings of σ are
  one function with the same values at ±∞ — so the two results agree at every input, finite or not, and the
  precondition is not used. Nothing was rewritten when the kernel was idealized, so that claim is empty.
-/
import proofs.«172807_j12850542150462_2_alg».proof.Defs
import proofs.«172807_j12850542150462_2_alg».proof.Proof.Gen.Kernel
import proofs.«172807_j12850542150462_2_alg».proof.Proof.Gen.KernelIdeal
import proofs.«172807_j12850542150462_2_alg».proof.Proof.Gen.ReferenceIdeal
import proofs.«172807_j12850542150462_2_alg».proof.Proof.Gen.Pre_finite_inputs
import proofs.«172807_j12850542150462_2_alg».proof.Proof.Gen.ReferenceIdeal.Run
import proofs.«172807_j12850542150462_2_alg».proof.Proof.Gen.ReferenceIdeal.Read
import proofs.«172807_j12850542150462_2_alg».proof.Proof.KernelFrame
import proofs.«172807_j12850542150462_2_alg».proof.Proof.KernelIdealFrame
import proofs.«172807_j12850542150462_2_alg».proof.Proof.KernelIsSpec
import proofs.«172807_j12850542150462_2_alg».proof.Proof.RefIsSpec
import Idealize.ShloMosaic.Adequacy
import Idealize.ShloMosaic.Init

noncomputable section

namespace Cert.Proof

open Idealize.ShloMosaic Idealize.SL.Sem

/-- The kernel's host program, word level: it runs to the end and leaves its arguments as they were. -/
theorem frame_k : Cert.frame_Kernel := fun m ρ _ => Cert.Kernel.Frm.frame m ρ

/-- The same at the extended reals. -/
theorem frame_ki : Cert.frame_KernelIdeal := fun m ρ _ => Cert.KernelIdeal.Frm.frame m ρ

/-- The reference is a straight line of host operations: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Idealizing the kernel rewrote nothing. -/
theorem preserves : Cert.preserves_Kernel_KernelIdeal := trivial

/-- From memories agreeing on the seven arguments both programs end with the layer of those arguments as their result. -/
theorem algebraic : Cert.algebraic_KernelIdeal_ReferenceIdeal := by
  intro m ρ m' ρ' _ hagree
  refine ⟨fun c => Cert.GatedLora.G (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Frm.result_eq m c), (h c).2⟩) (Cert.KernelIdeal.Frm.run_named m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1, (hagree c).2.2.2.2.2.1,
      (hagree c).2.2.2.2.2.2]
    exact (Cert.ReferenceIdeal.Read.val_main_v18_eq _ _ _ _ _ _ _).trans (Cert.GatedLora.ref_eq _ _ _ _ _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
